-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S2048x256, .f32⟩
  | .local _ .vmem, ⟨5, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S2048x256_S2048x256_0_0 : ∀ a, (![0, 0] : Fin 2 → Nat) a + S2048x256.size a ≤ S2048x256.size a
  h_S2048x256 : 0 < S2048x256.numel
  dot_S2048x4096_S4096x256_S2048x256_1_0_0_1_n_n_wf : DotDims.WF S2048x4096 S4096x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x4096.size a
  hwx0_2 : ∀ i : grid0.Coords, EltTy.bits .f32 = 32 ∨ (Rect.block (s := S8192x4096) S2048x256.size (cc0_transform_2 i) (hinb0_2 i)).WholeWords (EltTy.packing .f32)

variable [Facts₀]

def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf

abbrev win0_0 : Pipeline.Window sig grid0 :=
  Pipeline.Window.ofSpec (Memref.whole main_v1) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignedProduct.lean ====
/-
  The function both programs compute, with no program in sight.

  For arrays `x` (8192 × 4096) and `w` (4096 × 4096) of extended reals, the entry in row `p` and column `q` of
  the result is the sum over the 4096 shared positions `k` of `sign (x p k) · sign (w k q)`: a matrix product of the
  two arrays of signs. Each factor is one of -1, 0, 1, so every term and the whole sum is a real number whatever
  the inputs are; nothing below needs that, because the two programs are compared as the SAME sum of the SAME
  terms, never rearranged across an infinity.
-/
import Idealize.ShloMosaic.PureOps.Ideal
import Idealize.ShloMosaic.Lib.ValueIdx

noncomputable section

open scoped BigOperators

namespace Cert.SignedProduct

open Idealize.ShloMosaic Idealize.ShloMosaic.ValueIdx

/-- Row `p`, column `q` of the product of the signs: `∑ k, sign (x p k) · sign (w k q)`. -/
def entry (x : (⟨2, ![8192, 4096]⟩ : Shape).Idx → EReal) (w : (⟨2, ![4096, 4096]⟩ : Shape).Idx → EReal)
    (p : Fin 8192) (q : Fin 4096) : EReal :=
  ∑ k : Fin 4096, Ideal.sign (x (ix2 p k)) * Ideal.sign (w (ix2 k q))

/-- The whole result array: at the index `i` it holds `entry` at `i`'s two coordinates. -/
def signedProduct (x : (⟨2, ![8192, 4096]⟩ : Shape).Idx → EReal) (w : (⟨2, ![4096, 4096]⟩ : Shape).Idx → EReal) :
    (⟨2, ![8192, 4096]⟩ : Shape).Idx → EReal :=
  fun i => entry x w (i 0) (i 1)

theorem signedProduct_apply (x : (⟨2, ![8192, 4096]⟩ : Shape).Idx → EReal) (w : (⟨2, ![4096, 4096]⟩ : Shape).Idx → EReal)
    (p : Fin 8192) (q : Fin 4096) : signedProduct x w (ix2 p q) = entry x w p q := rfl

end Cert.SignedProduct

end
-- ==== Proof.ReferenceValue.lean ====
/-
  The reference's result is the product of the signs.

  The reference takes the sign of each input array on the host and contracts the two arrays of signs over the
  shared axis in one `dot_general`. Read at an index `i`, that is the sum over the shared position `k` of the left
  array of signs at `(i 0, k)` times the right one at `(k, i 1)`: the specification's entry at `i`'s coordinates,
  term for term.
-/
import proofs.«176163_j39573828666262_1_alg».proof.Proof.Gen.ReferenceIdeal.Read
import proofs.«176163_j39573828666262_1_alg».proof.Proof.SignedProduct

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand of the contraction is read at row `i 0`, shared position `k`. -/
theorem lidx_eq (i : S8192x4096.Idx) (k : Fin 4096) : lidx_main_v2 i k = ix2 (i 0) k :=
  funext fun d => Fin.ext (by match d with | ⟨0, _⟩ => rfl | ⟨1, _⟩ => rfl)

/-- The right operand is read at shared position `k`, column `i 1`. -/
theorem ridx_eq (i : S8192x4096.Idx) (k : Fin 4096) : ridx_main_v2 i k = ix2 k (i 1) :=
  funext fun d => Fin.ext (by match d with | ⟨0, _⟩ => rfl | ⟨1, _⟩ => rfl)

/-- The reference's last stage, as a function of the two argument arrays, is the product of their signs. -/
theorem result_eq (x : (⟨S8192x4096, .f32⟩ : BufTy).Contents (Elt Ideal)) (w : (⟨S4096x4096, .f32⟩ : BufTy).Contents (Elt Ideal)) :
    val_main_v2 (F := Ideal) x w = Cert.SignedProduct.signedProduct x w := by
  funext i
  rw [val_main_v2_apply]
  show _ = Cert.SignedProduct.entry x w (i 0) (i 1)
  unfold Cert.SignedProduct.entry
  refine Finset.sum_congr rfl fun k _ => ?_
  rw [lidx_eq, ridx_eq]
  rfl

end Cert.ReferenceIdeal.RefValue

end
-- ==== Proof.Payload.lean ====
/-
  The kernel body's one stored value, read at an entry.

  At a grid point the body loads a block `a` of 2048 rows by 4096 columns and a block `b` of 4096 rows by 256
  columns, and stores their matrix product accumulated into an all-zero block. Read at row `p` and column `q` of
  the stored block, and with extended reals for floats, that value is `0 + ∑ k, a p k · b k q` over the 4096 shared
  positions, and `0 + s = s` for every extended real `s`. The two shape casts in the body are between equal shapes
  and change nothing.

  The contraction of the product runs over the product's own index type, a one-coordinate index; the sum is moved
  to `Fin 4096` along the bijection between the two, and the operand positions the product reads, `(p, k)` on the
  left and `(k, q)` on the right, are computed coordinate by coordinate from its dimension numbers (contract axis 1
  of the left operand with axis 0 of the right).
-/
import proofs.«176163_j39573828666262_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The left operand is read in the output's row. -/
theorem lhs_row (j : S2048x256.Idx) (κ : dot_S2048x4096_S4096x256_S2048x256_1_0_0_1_n_n.contr.Idx) :
    (dot_S2048x4096_S4096x256_S2048x256_1_0_0_1_n_n.lhsIdx j κ 0).val = (j 0).val := by
  unfold DotDims.lhsIdx
  rw [dif_neg (show ¬(0 : Fin S2048x4096.rank) ∈ dot_S2048x4096_S4096x256_S2048x256_1_0_0_1_n_n.lhsBatch by decide), dif_pos (show (0 : Fin S2048x4096.rank) ∈ dot_S2048x4096_S4096x256_S2048x256_1_0_0_1_n_n.lhsNonContracting by decide)]
  rfl

/-- The left operand's column is the shared position. -/
theorem lhs_shared (j : S2048x256.Idx) (κ : dot_S2048x4096_S4096x256_S2048x256_1_0_0_1_n_n.contr.Idx) :
    (dot_S2048x4096_S4096x256_S2048x256_1_0_0_1_n_n.lhsIdx j κ 1).val = (κ ⟨0, by decide⟩).val :=
  dot_S2048x4096_S4096x256_S2048x256_1_0_0_1_n_n.lhsIdx_val_of_single rfl j κ

/-- The right operand's row is the shared position. -/
theorem rhs_shared (j : S2048x256.Idx) (κ : dot_S2048x4096_S4096x256_S2048x256_1_0_0_1_n_n.contr.Idx) :
    (dot_S2048x4096_S4096x256_S2048x256_1_0_0_1_n_n.rhsIdx j κ 0).val = (κ ⟨0, by decide⟩).val :=
  dot_S2048x4096_S4096x256_S2048x256_1_0_0_1_n_n.rhsIdx_val_of_single rfl j κ

/-- The right operand is read in the output's column. -/
theorem rhs_col (j : S2048x256.Idx) (κ : dot_S2048x4096_S4096x256_S2048x256_1_0_0_1_n_n.contr.Idx) :
    (dot_S2048x4096_S4096x256_S2048x256_1_0_0_1_n_n.rhsIdx j κ 1).val = (j 1).val := by
  unfold DotDims.rhsIdx
  rw [dif_neg (show ¬(1 : Fin S4096x256.rank) ∈ dot_S2048x4096_S4096x256_S2048x256_1_0_0_1_n_n.rhsBatch by decide), dif_pos (show (1 : Fin S4096x256.rank) ∈ dot_S2048x4096_S4096x256_S2048x256_1_0_0_1_n_n.rhsNonContracting by decide)]
  rfl

/-- A product into the zero block, at row `p` and column `q`: the sum over the shared position `k` of the left block
    at `(p, k)` times the right block at `(k, q)`. -/
theorem matmul_zero_apply (a : FVec Ideal S2048x4096 .bf16) (b : FVec Ideal S4096x256 .bf16) (p : Fin 2048) (q : Fin 256) :
    FloatOps.matmul dot_S2048x4096_S4096x256_S2048x256_1_0_0_1_n_n none a b (constant (F := Ideal) S2048x256 .f32 0x00000000#32) (ix2 p q)
      = ∑ k : Fin 4096, a (ix2 p k) * b (ix2 k q) := by
  rw [Ideal.matmul_constant_zero_apply, ← Equiv.sum_comp (contrEquiv1 dot_S2048x4096_S4096x256_S2048x256_1_0_0_1_n_n 4096 rfl rfl).symm]
  refine Finset.sum_congr rfl fun k _ => ?_
  have hk := contrEquiv1_symm_val dot_S2048x4096_S4096x256_S2048x256_1_0_0_1_n_n 4096 rfl rfl k
  have el : dot_S2048x4096_S4096x256_S2048x256_1_0_0_1_n_n.lhsIdx (ix2 p q) ((contrEquiv1 dot_S2048x4096_S4096x256_S2048x256_1_0_0_1_n_n 4096 rfl rfl).symm k) = ix2 p k := funext fun d => Fin.ext (by
    match d with
    | ⟨0, _⟩ => exact lhs_row _ _
    | ⟨1, _⟩ => exact (lhs_shared _ _).trans hk)
  have er : dot_S2048x4096_S4096x256_S2048x256_1_0_0_1_n_n.rhsIdx (ix2 p q) ((contrEquiv1 dot_S2048x4096_S4096x256_S2048x256_1_0_0_1_n_n 4096 rfl rfl).symm k) = ix2 k q := funext fun d => Fin.ext (by
    match d with
    | ⟨0, _⟩ => exact (rhs_shared _ _).trans hk
    | ⟨1, _⟩ => exact rhs_col _ _)
  rw [el, er]

/-- The body's stored value at row `p`, column `q` of its block, from the two loaded blocks. -/
theorem pay_apply (a : Vec Ideal S2048x4096 .bf16) (b : Vec Ideal S4096x256 .bf16) (p : Fin 2048) (q : Fin 256) :
    k0_pay1 (F := Ideal) a b (ix2 p q) = ∑ k : Fin 4096, a (ix2 p k) * b (ix2 k q) := by
  unfold k0_pay1
  simp only [shapeCast_self]
  exact matmul_zero_apply a b p q

end Cert.KernelIdeal.Payload

end
-- ==== Proof.HostPrefix.lean ====
/-
  What the kernel's two input windows find in their arrays.

  Before the kernel is launched the host takes the sign of each argument array and changes its float format. With
  extended reals for floats the format change is the identity, so the array the first window reads holds
  `sign (x i)` at every index `i` of the first argument, and the array the second window reads holds `sign (w i)`.
-/
import proofs.«176163_j39573828666262_1_alg».proof.Proof.Gen.KernelIdeal.Frame
import Idealize.ShloMosaic.Lib.StableHlo.Run
import Idealize.ShloMosaic.PureOps.Ideal

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- At region entry the first window's array is the array of signs of the first argument. -/
theorem signs_x (c : Dev nD) :
    (V m c main_v1 : S8192x4096.Idx → EReal) = fun i => Ideal.sign (m ((c : Thread nD τ).loc main_arg0) i) := by
  dsimp only [Gen.V, Gen.hostOps0]; after_results; rfl

/-- At region entry the second window's array is the array of signs of the second argument. -/
theorem signs_w (c : Dev nD) :
    (V m c main_v3 : S4096x4096.Idx → EReal) = fun i => Ideal.sign (m ((c : Thread nD τ).loc main_arg1) i) := by
  dsimp only [Gen.V, Gen.hostOps0]; after_results; rfl

end Cert.KernelIdeal.HostPrefix

end
-- ==== Proof.WholeArray.lean ====
/-
  From the kernel's blocks to its whole result array.

  The grid has 4 × 16 points. At the point with output block indices `(a, b)` the first window's block is rows
  `2048·a … 2048·a + 2047` of the array of signs of `x`, all 4096 columns; the second window's block is all 4096 rows
  of the array of signs of `w`, columns `256·b … 256·b + 255`; and the body stores the product of the two blocks, which
  is written back to rows `2048·a …`, columns `256·b …` of the result. So the entry the point writes at row
  `2048·a + p`, column `256·b + q` is `∑ k, sign (x (2048·a + p) k) · sign (w k (256·b + q))`: the specification's
  entry at that row and column. A row `r` and column `s` of the result lie in the block of the point with
  `a = r / 2048`, `b = s / 256`, so the 64 blocks cover the result, and the result array is the specification.
-/
import proofs.«176163_j39573828666262_1_alg».proof.Proof.Gen.KernelIdeal.Value
import proofs.«176163_j39573828666262_1_alg».proof.Proof.SignedProduct
import proofs.«176163_j39573828666262_1_alg».proof.Proof.Payload
import proofs.«176163_j39573828666262_1_alg».proof.Proof.HostPrefix

set_option maxRecDepth 16384

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store all start at the corner of their blocks. -/
theorem corner : (![0, 0] : Fin 2 → Nat) = fun _ => 0 := funext fun a => by fin_cases a <;> rfl

/-- One stored entry, over plain variables: if row `p` of the left block is row `r` of the signs of `x` and column `q`
    of the right block is column `s` of the signs of `w`, the stored entry at `(p, q)` is the specification's at `(r, s)`. -/
theorem block_entry (x : S8192x4096.Idx → EReal) (w : S4096x4096.Idx → EReal)
    (a : Vec Ideal S2048x4096 .bf16) (b : Vec Ideal S4096x256 .bf16)
    (r : Fin 8192) (s : Fin 4096) (p : Fin 2048) (q : Fin 256)
    (ha : ∀ k : Fin 4096, a (ix2 p k) = Ideal.sign (x (ix2 r k)))
    (hb : ∀ k : Fin 4096, b (ix2 k q) = Ideal.sign (w (ix2 k s))) :
    k0_pay1 (F := Ideal) a b (ix2 p q) = Cert.SignedProduct.entry x w r s := by
  rw [Cert.KernelIdeal.Payload.pay_apply]
  unfold Cert.SignedProduct.entry
  exact Finset.sum_congr rfl fun k _ => by rw [ha k, hb k]

/-- The three index maps over the 64 grid points: the first window follows the output's row block and stays at column
    block 0, the second stays at row block 0 and follows the output's column block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every pair of output block indices in 4 × 16 is some grid point's. -/
theorem index_onto : ∀ (a : Fin 4) (b : Fin 16), ∃ t : Fin cfg0.N, win0_2.index t = ![a.val, b.val] :=
  (by decide +kernel : ∀ (a : Fin 4) (b : Fin 16), ∃ t : Fin grid0.N, win0_2.index t = ![a.val, b.val])

/-- What grid point `t` writes back is block `t` of the specification of the two argument arrays. -/
theorem flushed_eq (c : Dev nD) (t : Fin cfg0.N) :
    (dats m 0 c).flushed 2 t = ((cfg0.win 2).blk t).view.read (Elt Ideal)
      (Cert.SignedProduct.signedProduct (m ((c : Thread nD τ).loc main_arg0)) (m ((c : Thread nD τ).loc main_arg1))) := by
  rw [Cert.KernelIdeal.Value.flushed2]
  unfold out0_2
  rw [View.canon_unit_zero corner]
  simp only [View.ld_unit_zero (S := S2048x4096) corner, View.ld_unit_zero (S := S4096x256) corner]
  obtain ⟨e0, e1, e2, e3⟩ := index_facts t
  funext j
  obtain ⟨p, q, rfl⟩ : ∃ (p : Fin 2048) (q : Fin 256), j = ix2 p q := ⟨j 0, j 1, eq_ix2 j⟩
  show k0_pay1 (F := Ideal) (iblk m c 0 t) (iblk m c 1 t) (ix2 p q)
    = Cert.SignedProduct.entry (m ((c : Thread nD τ).loc main_arg0)) (m ((c : Thread nD τ).loc main_arg1))
        ((((cfg0.win 2).blk t).view.emb (ix2 p q)) 0) ((((cfg0.win 2).blk t).view.emb (ix2 p q)) 1)
  refine block_entry (m ((c : Thread nD τ).loc main_arg0)) (m ((c : Thread nD τ).loc main_arg1)) (iblk m c 0 t) (iblk m c 1 t)
    ((((cfg0.win 2).blk t).view.emb (ix2 p q)) 0) ((((cfg0.win 2).blk t).view.emb (ix2 p q)) 1) p q ?_ ?_
  · intro k
    show V m c main_v1 (((cfg0.win 0).blk t).view.emb (ix2 p k)) = _
    rw [Cert.KernelIdeal.HostPrefix.signs_x]
    refine congrArg (fun i => Ideal.sign (m ((c : Thread nD τ).loc main_arg0) i)) ?_
    funext d; apply Fin.ext
    match d with
    | ⟨0, _⟩ => show win0_0.index t (0 : Fin 2) * 2048 + 1 * p.val = win0_2.index t (0 : Fin 2) * 2048 + 1 * p.val; omega
    | ⟨1, _⟩ => show win0_0.index t (1 : Fin 2) * 4096 + 1 * k.val = k.val; omega
  · intro k
    show V m c main_v3 (((cfg0.win 1).blk t).view.emb (ix2 k q)) = _
    rw [Cert.KernelIdeal.HostPrefix.signs_w]
    refine congrArg (fun i => Ideal.sign (m ((c : Thread nD τ).loc main_arg1) i)) ?_
    funext d; apply Fin.ext
    match d with
    | ⟨0, _⟩ => show win0_1.index t (0 : Fin 2) * 4096 + 1 * k.val = k.val; omega
    | ⟨1, _⟩ => show win0_1.index t (1 : Fin 2) * 256 + 1 * q.val = win0_2.index t (1 : Fin 2) * 256 + 1 * q.val; omega

/-- An index of the result is in point `t`'s block iff each coordinate is in the block's range on its axis. -/
theorem mem_block (t : Fin cfg0.N) (i : S8192x4096.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v4).slice (win0_2.rect t)).set ↔ _
  rw [View.set_slice_whole, Rect.mem_set_unit]
  exact Iff.rfl

/-- Every index of the result is in some point's block: row `r` in row block `r / 2048`, column `s` in column block `s / 256`. -/
theorem covered (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 2048, by omega⟩ ⟨(i 1).val / 256, by omega⟩
  have q0 : win0_2.index t (0 : Fin 2) = (i 0).val / 2048 := congrFun ht 0
  have q1 : win0_2.index t (1 : Fin 2) = (i 1).val / 256 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The result array after the run is the specification of the two argument arrays. -/
theorem final (c : Dev nD) : (dats m 0 c).arrAt 2 cfg0.N
    = Cert.SignedProduct.signedProduct (m ((c : Thread nD τ).loc main_arg0)) (m ((c : Thread nD τ).loc main_arg1)) :=
  (dats m 0 c).arrAt_eq_of_cover 2 _ (fun t _ => flushed_eq m c t) covered

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v4)
        = Cert.SignedProduct.signedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.lean ====
/-
  The kernel and its reference compute one function: the matrix product of the signs of the two argument arrays.

  The reference takes `sign x` (8192 × 4096) and `sign w` (4096 × 4096) on the host and contracts them in one
  product. The kernel takes the same two arrays of signs on the host, changes their float format — the identity on
  extended reals —, and computes the product tile by tile on a 4 × 16 grid: 2048 rows of the first array against 256
  columns of the second, accumulated into a zero block. Entry `(r, s)` of either result is
  `∑ k, sign (x r k) · sign (w k s)` over the 4096 shared positions `k`; the two sides are the same sum of the same terms,
  so nothing is rearranged and no finiteness of the inputs is used.

  Proof/SignedProduct.lean states that function; Proof/ReferenceValue.lean shows the reference's result is it;
  Proof/Payload.lean reads the kernel body's stored block at an entry; Proof/HostPrefix.lean says what the kernel's
  windows find in their arrays; Proof/WholeArray.lean assembles the 64 blocks into the whole result. The three
  programs' runs (termination, no fault, arguments unchanged) are the generated ones. The idealized kernel is the
  kernel's own text read over extended reals, with no rewrite to account for.
-/
import proofs.«176163_j39573828666262_1_alg».proof.Defs
import proofs.«176163_j39573828666262_1_alg».proof.Proof.Gen.Kernel
import proofs.«176163_j39573828666262_1_alg».proof.Proof.Gen.Kernel.Skeleton
import proofs.«176163_j39573828666262_1_alg».proof.Proof.Gen.Kernel.Launch
import proofs.«176163_j39573828666262_1_alg».proof.Proof.Gen.Kernel.Points
import proofs.«176163_j39573828666262_1_alg».proof.Proof.Gen.Kernel.Frame
import proofs.«176163_j39573828666262_1_alg».proof.Proof.Gen.KernelIdeal
import proofs.«176163_j39573828666262_1_alg».proof.Proof.Gen.KernelIdeal.Skeleton
import proofs.«176163_j39573828666262_1_alg».proof.Proof.Gen.KernelIdeal.Launch
import proofs.«176163_j39573828666262_1_alg».proof.Proof.Gen.KernelIdeal.Points
import proofs.«176163_j39573828666262_1_alg».proof.Proof.Gen.KernelIdeal.Frame
import proofs.«176163_j39573828666262_1_alg».proof.Proof.Gen.ReferenceIdeal
import proofs.«176163_j39573828666262_1_alg».proof.Proof.Gen.Pre_finite_inputs
import proofs.«176163_j39573828666262_1_alg».proof.Proof.Gen.KernelIdeal.Value
import proofs.«176163_j39573828666262_1_alg».proof.Proof.Gen.ReferenceIdeal.Run
import proofs.«176163_j39573828666262_1_alg».proof.Proof.Gen.ReferenceIdeal.Read
import proofs.«176163_j39573828666262_1_alg».proof.Proof.ReferenceValue
import proofs.«176163_j39573828666262_1_alg».proof.Proof.WholeArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel over extended reals runs and leaves its arguments unchanged. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over extended reals, so there is nothing to preserve. -/
theorem preserves : Cert.preserves_Kernel_KernelIdeal := trivial

/-- From memories that agree on the two arguments, both programs end with the product of the arguments' signs in their
    result arrays: the kernel by its blocks covering the result, the reference by its one contraction. -/
theorem algebraic : Cert.algebraic_KernelIdeal_ReferenceIdeal := by
  intro m ρ m' ρ' _ hagree
  refine ⟨fun c => Cert.SignedProduct.signedProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
